-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x32768x1 : Shape := ⟨3, ![256, 32768, 1]⟩
abbrev S256x32768x8 : Shape := ⟨3, ![256, 32768, 8]⟩
abbrev S9 : Shape := ⟨1, ![9]⟩
abbrev S8 : Shape := ⟨1, ![8]⟩
abbrev S_ : Shape := ⟨0, ![]⟩

class Facts : Prop where
  bcast_S_S256x32768x1 : S_.BroadcastsInDim S256x32768x1 (![] : Fin 0 → Fin S256x32768x1.rank)
  reducesTo_S256x32768x1_S_d0_1_2 : S256x32768x1.ReducesTo [0, 1, 2] S_
  h_S_ : 0 < S_.numel
  bcast_S_S256x32768x8 : S_.BroadcastsInDim S256x32768x8 (![] : Fin 0 → Fin S256x32768x8.rank)
  reducesTo_S256x32768x8_S_d0_1_2 : S256x32768x8.ReducesTo [0, 1, 2] S_
  bcast_S_S9 : S_.BroadcastsInDim S9 (![] : Fin 0 → Fin S9.rank)
  reducesTo_S9_S_d0 : S9.ReducesTo [0] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S256x32768x1 .f32) (main_arg1 : FVec F S256x32768x8 .f32) (main_arg2 : FVec F S9 .f32) (main_arg3 : FVec F S8 .f32) : IVec S_ 1 :=
  let main_v0 : FVec F S256x32768x1 .f32 := Host.absf main_arg0
  let main_cst : FVec F S_ .f32 := constant S_ .f32 0x7F800000#32
  let main_v1 : FVec F S256x32768x1 .f32 := broadcastInDim S256x32768x1 ![] bcast_S_S256x32768x1 main_cst
  let main_v2 : IVec S256x32768x1 1 := cmpf .olt main_v0 main_v1
  let main_c : IVec S_ 1 := constantI S_ 1 1#1
  let main_v3 : IVec S_ 1 := (fun x v => Host.reduce IntOp.andi x v reducesTo_S256x32768x1_S_d0_1_2 h_S_) main_v2 main_c
  let main_v4 : FVec F S256x32768x8 .f32 := Host.absf main_arg1
  let main_cst_0 : FVec F S_ .f32 := constant S_ .f32 0x7F800000#32
  let main_v5 : FVec F S256x32768x8 .f32 := broadcastInDim S256x32768x8 ![] bcast_S_S256x32768x8 main_cst_0
  let main_v6 : IVec S256x32768x8 1 := cmpf .olt main_v4 main_v5
  let main_c_1 : IVec S_ 1 := constantI S_ 1 1#1
  let main_v7 : IVec S_ 1 := (fun x v => Host.reduce IntOp.andi x v reducesTo_S256x32768x8_S_d0_1_2 h_S_) main_v6 main_c_1
  let main_v8 : IVec S_ 1 := andi main_v3 main_v7
  let main_v9 : FVec F S9 .f32 := Host.absf main_arg2
  let main_cst_2 : FVec F S_ .f32 := constant S_ .f32 0x7F800000#32
  let main_v10 : FVec F S9 .f32 := broadcastInDim S9 ![] bcast_S_S9 main_cst_2
  let main_v11 : IVec S9 1 := cmpf .olt main_v9 main_v10
  let main_c_3 : IVec S_ 1 := constantI S_ 1 1#1
  let main_v12 : IVec S_ 1 := (fun x v => Host.reduce IntOp.andi x v reducesTo_S9_S_d0 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Kernel.lean ====
abbrev S256x32768x1 : Shape := ⟨3, ![256, 32768, 1]⟩
abbrev S256x32768x8 : Shape := ⟨3, ![256, 32768, 8]⟩
abbrev S9 : Shape := ⟨1, ![9]⟩
abbrev S8 : Shape := ⟨1, ![8]⟩
abbrev S1x8388608 : Shape := ⟨2, ![1, 8388608]⟩
abbrev S8388608x8 : Shape := ⟨2, ![8388608, 8]⟩
abbrev S9x1 : Shape := ⟨2, ![9, 1]⟩
abbrev S8x1 : Shape := ⟨2, ![8, 1]⟩
abbrev S1x8192 : Shape := ⟨2, ![1, 8192]⟩
abbrev S8192x8 : Shape := ⟨2, ![8192, 8]⟩
abbrev S8x8192 : Shape := ⟨2, ![8, 8192]⟩
abbrev S1x1 : Shape := ⟨2, ![1, 1]⟩
abbrev S256x32768 : Shape := ⟨2, ![256, 32768]⟩

abbrev nBuf : Space → Nat
  | .hbm => 12
  | .vmem => 10
  | .smem => 0
  | _ => 0

abbrev bufTy : (tb : Table) → Fin (tcTables nBuf tb) → BufTy
  | .hbm, ⟨0, _⟩ => ⟨S256x32768x1, .f32⟩
  | .hbm, ⟨1, _⟩ => ⟨S256x32768x8, .f32⟩
  | .hbm, ⟨2, _⟩ => ⟨S9, .f32⟩
  | .hbm, ⟨3, _⟩ => ⟨S8, .f32⟩
  | .hbm, ⟨4, _⟩ => ⟨S1x8388608, .f32⟩
  | .hbm, ⟨5, _⟩ => ⟨S8388608x8, .f32⟩
  | .hbm, ⟨6, _⟩ => ⟨S9x1, .f32⟩
  | .hbm, ⟨7, _⟩ => ⟨S8x1, .f32⟩
  | .hbm, ⟨8, _⟩ => ⟨S1x8388608, .f32⟩
  | .hbm, ⟨9, _⟩ => ⟨S8388608x8, .f32⟩
  | .hbm, ⟨10, _⟩ => ⟨S256x32768, .f32⟩
  | .hbm, ⟨11, _⟩ => ⟨S256x32768x8, .f32⟩
  | .local _ .vmem, ⟨0, _⟩ => ⟨S1x8192, .f32⟩
  | .local _ .vmem, ⟨1, _⟩ => ⟨S1x8192, .f32⟩
  | .local _ .vmem, ⟨2, _⟩ => ⟨S8192x8, .f32⟩
  | .local _ .vmem, ⟨3, _⟩ => ⟨S8192x8, .f32⟩
  | .local _ .vmem, ⟨4, _⟩ => ⟨S9x1, .f32⟩
  | .local _ .vmem, ⟨5, _⟩ => ⟨S8x1, .f32⟩
  | .local _ .vmem, ⟨6, _⟩ => ⟨S1x8192, .f32⟩
  | .local _ .vmem, ⟨7, _⟩ => ⟨S1x8192, .f32⟩
  | .local _ .vmem, ⟨8, _⟩ => ⟨S8192x8, .f32⟩
  | .local _ .vmem, ⟨9, _⟩ => ⟨S8192x8, .f32⟩
  | _, _ => ⟨S256x32768x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256x32768x1_S1x8388608 : S256x32768x1.ShapeCasts S1x8388608
  shapeCasts_S256x32768x8_S8388608x8 : S256x32768x8.ShapeCasts S8388608x8
  shapeCasts_S9_S9x1 : S9.ShapeCasts S9x1
  shapeCasts_S8_S8x1 : S8.ShapeCasts S8x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S8192x8_S8192x8_0_0 : ∀ a, (![0, 0] : Fin 2 → Nat) a + S8192x8.size a ≤ S8192x8.size a
  h_S8192x8 : 0 < S8192x8.numel
  shapeCasts_S8192x8_S8192x8 : S8192x8.ShapeCasts S8192x8
  inb_S9x1_S9x1_0_0 : ∀ a, (![0, 0] : Fin 2 → Nat) a + S9x1.size a ≤ S9x1.size a
  h_S9x1 : 0 < S9x1.numel
  shapeCasts_S9x1_S9x1 : S9x1.ShapeCasts S9x1
  inb_S8x1_S8x1_0_0 : ∀ a, (![0, 0] : Fin 2 → Nat) a + S8x1.size a ≤ S8x1.size a
  h_S8x1 : 0 < S8x1.numel
  shapeCasts_S8x1_S8x1 : S8x1.ShapeCasts S8x1
  transposes_S8192x8_p1_0_S8x8192 : S8192x8.Transposes [1, 0] S8x8192
  slices_S9x1_o0_0_S1x1 : S9x1.Slices ![0, 0] S1x1
  slices_S9x1_o1_0_S8x1 : S9x1.Slices ![1, 0] S8x1
  broadcasts_S1x1_S1x8192 : S1x1.Broadcasts S1x8192
  slices_S8x8192_o0_0_S1x8192 : S8x8192.Slices ![0, 0] S1x8192
  broadcasts_S1x8192_S8x8192 : S1x8192.Broadcasts S8x8192
  broadcasts_S8x1_S8x8192 : S8x1.Broadcasts S8x8192
  iota_S8x8192_d0_w32 : S8x8192.Iotas .tc 32 [0]
  rotates_S8x8192_d0 : S8x8192.Rotates 0 none
  transposes_S8x8192_p1_0_S8192x8 : S8x8192.Transposes [1, 0] S8192x8
  shapeCasts_S1x8388608_S256x32768 : S1x8388608.ShapeCasts S256x32768
  shapeCasts_S8388608x8_S256x32768x8 : S8388608x8.ShapeCasts S256x32768x8
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192.size a ≤ S1x8388608.size a
  hwx0_0 : ∀ i : grid0.Coords, EltTy.bits .f32 = 32 ∨ (Rect.block (s := S1x8388608) S1x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x8.size a ≤ S8388608x8.size a
  hwx0_1 : ∀ i : grid0.Coords, EltTy.bits .f32 = 32 ∨ (Rect.block (s := S8388608x8) S8192x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x1.size a ≤ S9x1.size a
  hwx0_2 : ∀ i : grid0.Coords, EltTy.bits .f32 = 32 ∨ (Rect.block (s := S9x1) S9x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S8x1.size a
  hwx0_3 : ∀ i : grid0.Coords, EltTy.bits .f32 = 32 ∨ (Rect.block (s := S8x1) S8x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8192.size a ≤ S1x8388608.size a
  hwx0_4 : ∀ i : grid0.Coords, EltTy.bits .f32 = 32 ∨ (Rect.block (s := S1x8388608) S1x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x8.size a ≤ S8388608x8.size a
  hwx0_5 : ∀ i : grid0.Coords, EltTy.bits .f32 = 32 ∨ (Rect.block (s := S8388608x8) S8192x8.size (cc0_transform_5 i) (hinb0_5 i)).WholeWords (EltTy.packing .f32)

variable [Facts₀]

abbrev win0_0 : Pipeline.Window sig grid0 :=
  Pipeline.Window.ofSpec (Memref.whole main_v0) S1x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S9x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x8192.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S8192x8.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x32768x1 : Shape := ⟨3, ![256, 32768, 1]⟩
abbrev S256x32768x8 : Shape := ⟨3, ![256, 32768, 8]⟩
abbrev S9 : Shape := ⟨1, ![9]⟩
abbrev S8 : Shape := ⟨1, ![8]⟩
abbrev S1 : Shape := ⟨1, ![1]⟩
abbrev S_ : Shape := ⟨0, ![]⟩
abbrev S1x1x8 : Shape := ⟨3, ![1, 1, 8]⟩
abbrev S256x32768x7 : Shape := ⟨3, ![256, 32768, 7]⟩
abbrev S256x32768 : Shape := ⟨2, ![256, 32768]⟩

abbrev nBuf : Space → Nat
  | .hbm => 25
  | .vmem => 0
  | .smem => 0
  | _ => 0

abbrev bufTy : (tb : Table) → Fin (tcTables nBuf tb) → BufTy
  | .hbm, ⟨0, _⟩ => ⟨S256x32768x1, .f32⟩
  | .hbm, ⟨1, _⟩ => ⟨S256x32768x8, .f32⟩
  | .hbm, ⟨2, _⟩ => ⟨S9, .f32⟩
  | .hbm, ⟨3, _⟩ => ⟨S8, .f32⟩
  | .hbm, ⟨4, _⟩ => ⟨S1, .f32⟩
  | .hbm, ⟨5, _⟩ => ⟨S_, .f32⟩
  | .hbm, ⟨6, _⟩ => ⟨S256x32768x1, .f32⟩
  | .hbm, ⟨7, _⟩ => ⟨S256x32768x1, .f32⟩
  | .hbm, ⟨8, _⟩ => ⟨S256x32768x1, .f32⟩
  | .hbm, ⟨9, _⟩ => ⟨S256x32768x1, .f32⟩
  | .hbm, ⟨10, _⟩ => ⟨S8, .f32⟩
  | .hbm, ⟨11, _⟩ => ⟨S1x1x8, .f32⟩
  | .hbm, ⟨12, _⟩ => ⟨S256x32768x8, .f32⟩
  | .hbm, ⟨13, _⟩ => ⟨S256x32768x8, .f32⟩
  | .hbm, ⟨14, _⟩ => ⟨S256x32768x8, .f32⟩
  | .hbm, ⟨15, _⟩ => ⟨S1x1x8, .f32⟩
  | .hbm, ⟨16, _⟩ => ⟨S256x32768x8, .f32⟩
  | .hbm, ⟨17, _⟩ => ⟨S256x32768x8, .f32⟩
  | .hbm, ⟨18, _⟩ => ⟨S256x32768x8, .f32⟩
  | .hbm, ⟨19, _⟩ => ⟨S256x32768x8, .f32⟩
  | .hbm, ⟨20, _⟩ => ⟨S256x32768x7, .f32⟩
  | .hbm, ⟨21, _⟩ => ⟨S_, .i32⟩
  | .hbm, ⟨22, _⟩ => ⟨S1, .i32⟩
  | .hbm, ⟨23, _⟩ => ⟨S256x32768x8, .f32⟩
  | .hbm, ⟨24, _⟩ => ⟨S256x32768, .f32⟩
  | _, _ => ⟨S256x32768x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]

class Facts₀ : Prop where
  slices_S9_S1_0 : S9.Slices ![0] S1
  shapeCasts_S1_S_ : S1.ShapeCasts S_
  bcast_S_S256x32768x1 : S_.BroadcastsInDim S256x32768x1 (![] : Fin 0 → Fin S256x32768x1.rank)
  slices_S256x32768x8_S256x32768x1_0_0_0 : S256x32768x8.Slices ![0, 0, 0] S256x32768x1
  slices_S9_S8_1 : S9.Slices ![1] S8
  bcast_S8_S1x1x8_2 : S8.BroadcastsInDim S1x1x8 (![2] : Fin 1 → Fin S1x1x8.rank)
  bcast_S256x32768x1_S256x32768x8_0_1_2 : S256x32768x1.BroadcastsInDim S256x32768x8 (![0, 1, 2] : Fin 3 → Fin S256x32768x8.rank)
  bcast_S1x1x8_S256x32768x8_0_1_2 : S1x1x8.BroadcastsInDim S256x32768x8 (![0, 1, 2] : Fin 3 → Fin S256x32768x8.rank)
  slices_S256x32768x8_S256x32768x7_0_0_1 : S256x32768x8.Slices ![0, 0, 1] S256x32768x7
  bcast_S_S1 : S_.BroadcastsInDim S1 (![] : Fin 0 → Fin S1.rank)
  shapeCasts_S256x32768x1_S256x32768 : S256x32768x1.ShapeCasts S256x32768
  scatter_S256x32768x8_S1_S256x32768x7_012_n_2_0_wf : ScatterDims.WF S256x32768x8 S1 S256x32768x7 [0, 1, 2] [] [2] 0

variable [Facts₀]

def scatter_S256x32768x8_S1_S256x32768x7_012_n_2_0 : ScatterDims S256x32768x8 S1 S256x32768x7 where
  updateWindowDims := [0, 1, 2]
  insertedWindowDims := []
  scatterDimsToOperandDims := [2]
  indexVectorDim := 0
  wf := scatter_S256x32768x8_S1_S256x32768x7_012_n_2_0_wf

class Facts : Prop extends Facts₀ where

variable [Facts]
-- ==== Proof.KernelPayload.lean ====
/-
  What the kernel's body computes, read at one index of each stored tile.

  The body loads a row `x` of 8192 input samples (a `[1, 8192]` tile), the matching `[8192, 8]` tile `v` of
  filter states, the taps `b` (`[9, 1]`) and `a` (`[8, 1]`). It works on the TRANSPOSED state tile
  `vT[k, r] = v[r, k]`, so that the 8192 samples lie along the lanes:

    y[r]        = x[r] · b[0] + vT[0, r]
    w[k, r]     = (x[r] · b[k + 1] − y[r] · a[k]) + (if k < 7 then rolled[k, r] else 0)

  where `rolled` is `vT` rotated by 7 along its 8 rows, `rolled[k, r] = vT[(k + 1) mod 8, r]`, and the row index
  `k` comes from an iota compared with 7. It stores `y` and the transpose of `w` back. Read at `(r, k)` the second
  store is `(x[r] · b[k + 1] − y[r] · a[k]) + v[r, k + 1]` for `k < 7` and `(x[r] · b[8] − y[r] · a[7]) + 0` at `k = 7`.
-/
import proofs.«127173_j50714973831168_2_alg».proof.Proof.Gen.KernelIdeal.Skeleton
import Idealize.ShloMosaic.Lib.Pipeline.Value
import Idealize.ShloMosaic.Lib.ValueIdx
import Idealize.ShloMosaic.Lib.KernelVsHost
import Idealize.ShloMosaic.PureOps.Ideal.Laws

noncomputable section

namespace Cert.KernelPayload

open Cert.KernelIdeal Cert.KernelIdeal.Gen Idealize.ShloMosaic Idealize.ShloMosaic.ValueIdx

/-- The loaded input row is itself (a shape cast to its own shape). -/
theorem pay1_eq (v0 : Vec Ideal S1x8192 .f32) : k0_pay1 v0 = v0 := by
  unfold k0_pay1; exact shapeCast_self _ _

/-- The loaded taps `b` are themselves. -/
theorem pay2_eq (v4 : Vec Ideal S9x1 .f32) : k0_pay2 v4 = v4 := by
  unfold k0_pay2; exact shapeCast_self _ _

/-- The transposed state tile: `vT[k, r] = v[r, k]`. -/
theorem pay3_apply (v2 : Vec Ideal S8192x8 .f32) (k : Fin 8) (r : Fin 8192) : k0_pay3 v2 (ix2 k r) = v2 (ix2 r k) := by
  unfold k0_pay3
  rw [transpose_apply [1, 0] _ transposes_S8192x8_p1_0_S8x8192 (ix2 k r) (ix2 r k) (by
    intro b; match b with | ⟨0, _⟩ => rfl | ⟨1, _⟩ => rfl), shapeCast_self]

/-- The output sample `y[r] = x[r] · b[0] + v[r, 0]`. -/
theorem pay4_apply (v0 : Vec Ideal S1x8192 .f32) (v2 : Vec Ideal S8192x8 .f32) (v4 : Vec Ideal S9x1 .f32) (r : Fin 8192) :
    k0_pay4 v0 v2 v4 (ix2 0 r) = v0 (ix2 0 r) * v4 (ix2 0 0) + v2 (ix2 r 0) := by
  unfold k0_pay4
  rw [addf_apply, mulf_apply, pay1_eq, pay2_eq,
    broadcastTo_apply _ broadcasts_S1x1_S1x8192 (ix2 (0 : Fin 1) r) (ix2 (0 : Fin 1) (0 : Fin 1)) (by
      intro a; match a with | ⟨0, _⟩ => rfl | ⟨1, _⟩ => rfl),
    extractStridedSlice_apply ![0, 0] v4 slices_S9x1_o0_0_S1x1 (ix2 (0 : Fin 1) (0 : Fin 1)) (ix2 (0 : Fin 9) (0 : Fin 1)) (by
      intro a; match a with | ⟨0, _⟩ => rfl | ⟨1, _⟩ => rfl),
    extractStridedSlice_apply ![0, 0] (k0_pay3 v2) slices_S8x8192_o0_0_S1x8192 (ix2 (0 : Fin 1) r) (ix2 (0 : Fin 8) r) (by
      intro a; match a with | ⟨0, _⟩ => rfl | ⟨1, _⟩ => exact (Nat.zero_add _).symm),
    pay3_apply]

/-- The row index `k` of the 8 rows compared with 7. -/
theorem row_lt_seven : ∀ k : Fin 8, IntOp.cmpi .slt (BitVec.ofNat 32 k.val) 7#32 = if k.val < 7 then 1#1 else 0#1 := by
  decide

/-- The new state before the final transpose, at `(k, r)`, as the body spells it. -/
theorem pay5_apply (v0 : Vec Ideal S1x8192 .f32) (v2 : Vec Ideal S8192x8 .f32) (v4 : Vec Ideal S9x1 .f32)
    (v6 : Vec Ideal S8x1 .f32) (r : Fin 8192) (k : Fin 8) :
    k0_pay5 v0 v2 v4 v6 (ix2 r k)
      = (v0 (ix2 0 r) * v4 (ix2 ⟨k.val + 1, by have := k.isLt; omega⟩ 0)
          - (v0 (ix2 0 r) * v4 (ix2 0 0) + v2 (ix2 r 0)) * v6 (ix2 k 0))
        + (if h : k.val < 7 then v2 (ix2 r ⟨k.val + 1, by omega⟩) else 0) := by
  have hk8 : k.val < 8 := k.isLt
  unfold k0_pay5
  rw [transpose_apply [1, 0] _ transposes_S8x8192_p1_0_S8192x8 (ix2 r k) (ix2 k r) (by
    intro b; match b with | ⟨0, _⟩ => rfl | ⟨1, _⟩ => rfl)]
  rw [addf_apply, subf_apply, mulf_apply, mulf_apply, select_apply, pay1_eq, pay2_eq,
    broadcastTo_apply v0 broadcasts_S1x8192_S8x8192 (ix2 k r) (ix2 (0 : Fin 1) r) (by
      intro a; match a with | ⟨0, _⟩ => rfl | ⟨1, _⟩ => rfl),
    broadcastTo_apply (extractStridedSlice S8x1 ![1, 0] v4 slices_S9x1_o1_0_S8x1) broadcasts_S8x1_S8x8192 (ix2 k r) (ix2 k (0 : Fin 1)) (by
      intro a; match a with | ⟨0, _⟩ => rfl | ⟨1, _⟩ => rfl),
    extractStridedSlice_apply ![1, 0] v4 slices_S9x1_o1_0_S8x1 (ix2 k (0 : Fin 1)) (ix2 (⟨k.val + 1, by omega⟩ : Fin 9) (0 : Fin 1)) (by
      intro a; match a with | ⟨0, _⟩ => exact Nat.add_comm _ _ | ⟨1, _⟩ => rfl),
    broadcastTo_apply (k0_pay4 v0 v2 v4) broadcasts_S1x8192_S8x8192 (ix2 k r) (ix2 (0 : Fin 1) r) (by
      intro a; match a with | ⟨0, _⟩ => rfl | ⟨1, _⟩ => rfl),
    broadcastTo_apply (shapeCast S8x1 v6 shapeCasts_S8x1_S8x1) broadcasts_S8x1_S8x8192 (ix2 k r) (ix2 k (0 : Fin 1)) (by
      intro a; match a with | ⟨0, _⟩ => rfl | ⟨1, _⟩ => rfl),
    shapeCast_self, pay4_apply]
  congr 1
  rw [cmpi, iota_single_apply, broadcast_apply, broadcast_apply]
  show Scalar.select (IntOp.cmpi .slt (BitVec.ofNat 32 k.val) 7#32) _ _ = _
  rw [row_lt_seven k]
  by_cases h : k.val < 7
  · rw [if_pos h, dif_pos h, select_one,
      dynamicRotate_apply 0 7#32 (k0_pay3 v2) rotates_S8x8192_d0 (ix2 k r) (ix2 (⟨k.val + 1, by omega⟩ : Fin 8) r) (by
        intro b
        match b with
        | ⟨0, _⟩ => show k.val + 1 = (k.val + 8 - (7#32).toNat % 8) % 8; have e : (7#32 : BitVec 32).toNat = 7 := rfl; rw [e]; omega
        | ⟨1, _⟩ => rfl),
      pay3_apply]
  · rw [if_neg h, dif_neg h, select_zero]
    exact Ideal.ofBits_zero_f32

end Cert.KernelPayload

end
-- ==== Proof.Flat.lean ====
/-
  The filter step on FLAT arrays: the form the kernel's region works in.

  The input samples as one row `X[0, n]` of `N = 8388608 = 256 · 32768` samples, the states as `V[n, k]` (`N × 8`),
  the taps as columns `B[j, 0]` (9 of them) and `A[k, 0]` (8):

    Y[0, n] = X[0, n] · B[0, 0] + V[n, 0]
    W[n, k] = (X[0, n] · B[k + 1, 0] − Y[0, n] · A[k, 0]) + (if k < 7 then V[n, k + 1] else 0)

  The last state's `+ 0` is kept as the kernel computes it; that it changes nothing is shown where these functions are
  compared with the specification.
-/
import Idealize.ShloMosaic.PureOps.Ideal
import Idealize.ShloMosaic.Lib.ValueIdx

noncomputable section

namespace Cert.Flat

open Idealize.ShloMosaic Idealize.ShloMosaic.ValueIdx

/-- The output sample `n`: `X[0, n] · B[0, 0] + V[n, 0]`. -/
def flatOutAt (X : Vec Ideal ⟨2, ![1, 8388608]⟩ .f32) (V : Vec Ideal ⟨2, ![8388608, 8]⟩ .f32) (B : Vec Ideal ⟨2, ![9, 1]⟩ .f32)
    (n : Fin 8388608) : EReal :=
  X (ix2 0 n) * B (ix2 0 0) + V (ix2 n 0)

/-- The new state `k` of sample `n`. -/
def flatStateAt (X : Vec Ideal ⟨2, ![1, 8388608]⟩ .f32) (V : Vec Ideal ⟨2, ![8388608, 8]⟩ .f32) (B : Vec Ideal ⟨2, ![9, 1]⟩ .f32)
    (A : Vec Ideal ⟨2, ![8, 1]⟩ .f32) (n : Fin 8388608) (k : Fin 8) : EReal :=
  (X (ix2 0 n) * B (ix2 ⟨k.val + 1, by have := k.isLt; omega⟩ 0) - flatOutAt X V B n * A (ix2 k 0))
    + (if h : k.val < 7 then V (ix2 n ⟨k.val + 1, by omega⟩) else 0)

/-- The row of output samples. -/
def flatOut (X : Vec Ideal ⟨2, ![1, 8388608]⟩ .f32) (V : Vec Ideal ⟨2, ![8388608, 8]⟩ .f32) (B : Vec Ideal ⟨2, ![9, 1]⟩ .f32) :
    Vec Ideal ⟨2, ![1, 8388608]⟩ .f32 :=
  fun i => flatOutAt X V B ⟨(i 1).val, idx2_lt1 i⟩

/-- The array of new states. -/
def flatState (X : Vec Ideal ⟨2, ![1, 8388608]⟩ .f32) (V : Vec Ideal ⟨2, ![8388608, 8]⟩ .f32) (B : Vec Ideal ⟨2, ![9, 1]⟩ .f32)
    (A : Vec Ideal ⟨2, ![8, 1]⟩ .f32) : Vec Ideal ⟨2, ![8388608, 8]⟩ .f32 :=
  fun i => flatStateAt X V B A ⟨(i 0).val, idx2_lt0 i⟩ ⟨(i 1).val, idx2_lt1 i⟩

theorem flatOut_apply (X : Vec Ideal ⟨2, ![1, 8388608]⟩ .f32) (V : Vec Ideal ⟨2, ![8388608, 8]⟩ .f32) (B : Vec Ideal ⟨2, ![9, 1]⟩ .f32)
    (n : Fin 8388608) : flatOut X V B (ix2 0 n) = flatOutAt X V B n := rfl

theorem flatState_apply (X : Vec Ideal ⟨2, ![1, 8388608]⟩ .f32) (V : Vec Ideal ⟨2, ![8388608, 8]⟩ .f32) (B : Vec Ideal ⟨2, ![9, 1]⟩ .f32)
    (A : Vec Ideal ⟨2, ![8, 1]⟩ .f32) (n : Fin 8388608) (k : Fin 8) : flatState X V B A (ix2 n k) = flatStateAt X V B A n k := rfl

end Cert.Flat

end
-- ==== Proof.KernelBlocks.lean ====
/-
  The kernel's two output arrays after the region, as whole-array functions of the arrays the region finds.

  The region works on FLAT arrays: the input samples as one row `X[0, n]` of `N = 8388608` samples, the states as
  `V[n, k]` (`N × 8`), the taps as columns `B[j, 0]`, `A[k, 0]`. Grid point `t` of 1024 handles the 8192 samples
  `n = 8192·t + r`: it reads the tile `X[0, 8192t ..]`, the tile `V[8192t .., :]` and both tap columns whole, and
  writes the tile `Y[0, 8192t ..]` of output samples and the tile `W[8192t .., :]` of new states. Read through the
  body's arithmetic, every tile it writes is the matching tile of ONE function of the whole arrays,

    Y[0, n] = X[0, n] · B[0, 0] + V[n, 0]
    W[n, k] = (X[0, n] · B[k + 1, 0] − Y[0, n] · A[k, 0]) + (if k < 7 then V[n, k + 1] else 0),

  the functions `Flat.flatOut` and `Flat.flatState`, and the 1024 tiles cover the arrays (sample `n` lies in the tile of
  point `n / 8192`), so after the region the two output arrays ARE these functions.
-/
import proofs.«127173_j50714973831168_2_alg».proof.Proof.Gen.KernelIdeal.Frame
import proofs.«127173_j50714973831168_2_alg».proof.Proof.KernelPayload
import proofs.«127173_j50714973831168_2_alg».proof.Proof.Flat

set_option maxRecDepth 16384

noncomputable section

namespace Cert.KernelBlocks

open Cert.KernelIdeal Cert.KernelIdeal.Gen Idealize.ShloMosaic Idealize.ShloMosaic.TcCoe Idealize.SL.Sem
open Idealize.ShloMosaic.ValueIdx Cert.Flat
open Idealize.ShloMosaic.Pipeline (Dat)

variable (m : (ℓ : Loc nD τ sig) → Buf (Elt Ideal) ℓ)

/-! ## Where each tile sits -/

theorem hz : (![0, 0] : Fin 2 → Nat) = fun _ => 0 := funext fun a => by fin_cases a <;> rfl

/-- The printed index maps over the 1024 points: the sample tiles move with the point along the sample axis, the
    tap columns stay. -/
theorem idx_facts : ∀ t : Fin cfg0.N,
    win0_0.index t (0 : Fin 2) = 0 ∧ win0_0.index t (1 : Fin 2) = t.val
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val
    ∧ win0_5.index t (0 : Fin 2) = t.val ∧ win0_5.index t (1 : Fin 2) = 0 :=
  (by decide +kernel : ∀ t : Fin grid0.N, _)

theorem point_lt (t : Fin cfg0.N) : t.val < 1024 := lt_of_lt_of_eq t.isLt N_0

/-- Sample `r` of point `t`'s tile is sample `8192·t + r`. -/
abbrev sampleOf (t : Fin cfg0.N) (r : Fin 8192) : Fin 8388608 :=
  ⟨t.val * 8192 + r.val, by have := point_lt t; have := r.isLt; omega⟩

/-- The input row's tile at point `t`, read at `r`. -/
theorem read0 (c : Dev nD) (t : Fin cfg0.N) (r : Fin 8192) :
    iblk m c 0 t (ix2 0 r) = V m c main_v0 (ix2 0 (sampleOf t r)) := by
  obtain ⟨e0, e1, -⟩ := idx_facts t
  show V m c main_v0 (((cfg0.win 0).blk t).view.emb (ix2 0 r)) = V m c main_v0 (ix2 0 (sampleOf t r))
  refine congrArg (V m c main_v0) ?_
  funext a; apply Fin.ext
  match a with
  | ⟨0, _⟩ => show win0_0.index t (0 : Fin 2) * 1 + 1 * 0 = 0; rw [e0]
  | ⟨1, _⟩ => show win0_0.index t (1 : Fin 2) * 8192 + 1 * r.val = t.val * 8192 + r.val; rw [e1]; omega

/-- The state tile at point `t`, read at `(r, k)`. -/
theorem read1 (c : Dev nD) (t : Fin cfg0.N) (r : Fin 8192) (k : Fin 8) :
    iblk m c 1 t (ix2 r k) = V m c main_v1 (ix2 (sampleOf t r) k) := by
  obtain ⟨-, -, e2, e3, -⟩ := idx_facts t
  show V m c main_v1 (((cfg0.win 1).blk t).view.emb (ix2 r k)) = V m c main_v1 (ix2 (sampleOf t r) k)
  refine congrArg (V m c main_v1) ?_
  funext a; apply Fin.ext
  match a with
  | ⟨0, _⟩ => show win0_1.index t (0 : Fin 2) * 8192 + 1 * r.val = t.val * 8192 + r.val; rw [e2]; omega
  | ⟨1, _⟩ => show win0_1.index t (1 : Fin 2) * 8 + 1 * k.val = k.val; rw [e3]; omega

/-- The column of taps `b` at any point, read at `j`. -/
theorem read2 (c : Dev nD) (t : Fin cfg0.N) (j : Fin 9) :
    iblk m c 2 t (ix2 j 0) = V m c main_v2 (ix2 j 0) := by
  obtain ⟨-, -, -, -, e4, e5, -⟩ := idx_facts t
  show V m c main_v2 (((cfg0.win 2).blk t).view.emb (ix2 j 0)) = V m c main_v2 (ix2 j 0)
  refine congrArg (V m c main_v2) ?_
  funext a; apply Fin.ext
  match a with
  | ⟨0, _⟩ => show win0_2.index t (0 : Fin 2) * 9 + 1 * j.val = j.val; rw [e4]; omega
  | ⟨1, _⟩ => show win0_2.index t (1 : Fin 2) * 1 + 1 * 0 = 0; rw [e5]

/-- The column of taps `a` at any point, read at `k`. -/
theorem read3 (c : Dev nD) (t : Fin cfg0.N) (k : Fin 8) :
    iblk m c 3 t (ix2 k 0) = V m c main_v3 (ix2 k 0) := by
  obtain ⟨-, -, -, -, -, -, e6, e7, -⟩ := idx_facts t
  show V m c main_v3 (((cfg0.win 3).blk t).view.emb (ix2 k 0)) = V m c main_v3 (ix2 k 0)
  refine congrArg (V m c main_v3) ?_
  funext a; apply Fin.ext
  match a with
  | ⟨0, _⟩ => show win0_3.index t (0 : Fin 2) * 8 + 1 * k.val = k.val; rw [e6]; omega
  | ⟨1, _⟩ => show win0_3.index t (1 : Fin 2) * 1 + 1 * 0 = 0; rw [e7]

/-- Where element `r` of point `t`'s output-sample tile sits in the row. -/
theorem emb4 (t : Fin cfg0.N) (r : Fin 8192) :
    ((cfg0.win 4).blk t).view.emb (ix2 (0 : Fin 1) r) = ix2 (0 : Fin 1) (sampleOf t r) := by
  obtain ⟨-, -, -, -, -, -, -, -, e8, e9, -⟩ := idx_facts t
  funext a; apply Fin.ext
  match a with
  | ⟨0, _⟩ => show win0_4.index t (0 : Fin 2) * 1 + 1 * 0 = 0; rw [e8]
  | ⟨1, _⟩ => show win0_4.index t (1 : Fin 2) * 8192 + 1 * r.val = t.val * 8192 + r.val; rw [e9]; omega

/-- Where element `(r, k)` of point `t`'s new-state tile sits in the array. -/
theorem emb5 (t : Fin cfg0.N) (r : Fin 8192) (k : Fin 8) :
    ((cfg0.win 5).blk t).view.emb (ix2 r k) = ix2 (sampleOf t r) k := by
  obtain ⟨-, -, -, -, -, -, -, -, -, -, e10, e11⟩ := idx_facts t
  funext a; apply Fin.ext
  match a with
  | ⟨0, _⟩ => show win0_5.index t (0 : Fin 2) * 8192 + 1 * r.val = t.val * 8192 + r.val; rw [e10]; omega
  | ⟨1, _⟩ => show win0_5.index t (1 : Fin 2) * 8 + 1 * k.val = k.val; rw [e11]; omega

/-! ## What a point writes back -/

/-- Point `t` writes back tile `t` of the row of output samples. -/
theorem flushed4_eq (c : Dev nD) (t : Fin cfg0.N) :
    (dats m 0 c).flushed 4 t
      = ((cfg0.win 4).blk t).view.read (Elt Ideal) (flatOut (V m c main_v0) (V m c main_v1) (V m c main_v2)) := by
  show (cfg0.win 4).cut (grid0.coords t) ((dats m 0 c).after 4 t) = _
  rw [after0_4]
  unfold out0_4
  rw [View.canon_unit_zero hz]
  simp only [View.ld_unit_zero (S := S1x8192) hz, View.ld_unit_zero (S := S8192x8) hz, View.ld_unit_zero (S := S9x1) hz]
  show (k0_pay4 (iblk m c 0 t) (iblk m c 1 t) (iblk m c 2 t) : S1x8192.Idx → EReal)
    = fun y => flatOut (V m c main_v0) (V m c main_v1) (V m c main_v2) (((cfg0.win 4).blk t).view.emb y)
  funext y
  obtain ⟨z, r, rfl⟩ : ∃ (z : Fin 1) (r : Fin 8192), y = ix2 z r := ⟨y 0, y 1, eq_ix2 y⟩
  obtain rfl : z = 0 := Subsingleton.elim _ _
  refine (KernelPayload.pay4_apply (iblk m c 0 t) (iblk m c 1 t) (iblk m c 2 t) r).trans ?_
  rw [read0, read1, read2, emb4, flatOut_apply]
  rfl

/-- Point `t` writes back tile `t` of the array of new states. -/
theorem flushed5_eq (c : Dev nD) (t : Fin cfg0.N) :
    (dats m 0 c).flushed 5 t
      = ((cfg0.win 5).blk t).view.read (Elt Ideal) (flatState (V m c main_v0) (V m c main_v1) (V m c main_v2) (V m c main_v3)) := by
  show (cfg0.win 5).cut (grid0.coords t) ((dats m 0 c).after 5 t) = _
  rw [after0_5]
  unfold out0_5
  rw [View.canon_unit_zero hz]
  simp only [View.ld_unit_zero (S := S1x8192) hz, View.ld_unit_zero (S := S8192x8) hz, View.ld_unit_zero (S := S9x1) hz,
    View.ld_unit_zero (S := S8x1) hz]
  show (k0_pay5 (iblk m c 0 t) (iblk m c 1 t) (iblk m c 2 t) (iblk m c 3 t) : S8192x8.Idx → EReal)
    = fun y => flatState (V m c main_v0) (V m c main_v1) (V m c main_v2) (V m c main_v3) (((cfg0.win 5).blk t).view.emb y)
  funext y
  obtain ⟨r, k, rfl⟩ : ∃ (r : Fin 8192) (k : Fin 8), y = ix2 r k := ⟨y 0, y 1, eq_ix2 y⟩
  refine (KernelPayload.pay5_apply (iblk m c 0 t) (iblk m c 1 t) (iblk m c 2 t) (iblk m c 3 t) r k).trans ?_
  rw [read0, read1, read2, read2, read3, emb5, flatState_apply]
  unfold flatStateAt flatOutAt
  by_cases h : k.val < 7
  · rw [dif_pos h, dif_pos h, read1]
  · rw [dif_neg h, dif_neg h]

/-! ## The tiles cover the arrays -/

/-- An index of the row is in point `t`'s tile iff each coordinate is in the tile's range. -/
theorem mem_blk4 (t : Fin cfg0.N) (i : S1x8388608.Idx) :
    i ∈ ((cfg0.win 4).blk t).view.set ↔ ∀ a : Fin 2, win0_4.index t a * S1x8192.size a ≤ (i a).val ∧ (i a).val < win0_4.index t a * S1x8192.size a + S1x8192.size a := by
  show i ∈ ((View.whole main_v4_0).slice (win0_4.rect t)).set ↔ _
  rw [View.set_slice_whole, Rect.mem_set_unit]
  exact Iff.rfl

theorem mem_blk5 (t : Fin cfg0.N) (i : S8388608x8.Idx) :
    i ∈ ((cfg0.win 5).blk t).view.set ↔ ∀ a : Fin 2, win0_5.index t a * S8192x8.size a ≤ (i a).val ∧ (i a).val < win0_5.index t a * S8192x8.size a + S8192x8.size a := by
  show i ∈ ((View.whole main_v4_1).slice (win0_5.rect t)).set ↔ _
  rw [View.set_slice_whole, Rect.mem_set_unit]
  exact Iff.rfl

/-- The point whose tile holds sample `n`. -/
abbrev pointOf (n : Nat) (hn : n < 8388608) : Fin cfg0.N :=
  ⟨n / 8192, by show n / 8192 < grid0.N; rw [N_0]; omega⟩

/-- Every index of the row of output samples is in the tile of the point `n / 8192`. -/
theorem cover4 (i : S1x8388608.Idx) : ∃ t : Fin cfg0.N, (cfg0.win 4).flush t = true ∧ i ∈ ((cfg0.win 4).blk t).view.set := by
  have h0 : (i 0).val < 1 := idx2_lt0 i
  have h1 : (i 1).val < 8388608 := idx2_lt1 i
  refine ⟨pointOf (i 1).val h1, flush0_4 _, ?_⟩
  obtain ⟨-, -, -, -, -, -, -, -, e8, e9, -⟩ := idx_facts (pointOf (i 1).val h1)
  rw [mem_blk4]
  intro a
  match a with
  | ⟨0, _⟩ =>
    show win0_4.index (pointOf (i 1).val h1) (0 : Fin 2) * 1 ≤ (i 0).val ∧ (i 0).val < win0_4.index (pointOf (i 1).val h1) (0 : Fin 2) * 1 + 1
    rw [e8]; omega
  | ⟨1, _⟩ =>
    show win0_4.index (pointOf (i 1).val h1) (1 : Fin 2) * 8192 ≤ (i 1).val ∧ (i 1).val < win0_4.index (pointOf (i 1).val h1) (1 : Fin 2) * 8192 + 8192
    rw [e9]
    show (i 1).val / 8192 * 8192 ≤ (i 1).val ∧ (i 1).val < (i 1).val / 8192 * 8192 + 8192
    omega

/-- Every index of the array of new states is in the tile of the point `n / 8192`. -/
theorem cover5 (i : S8388608x8.Idx) : ∃ t : Fin cfg0.N, (cfg0.win 5).flush t = true ∧ i ∈ ((cfg0.win 5).blk t).view.set := by
  have h0 : (i 0).val < 8388608 := idx2_lt0 i
  have h1 : (i 1).val < 8 := idx2_lt1 i
  refine ⟨pointOf (i 0).val h0, flush0_5 _, ?_⟩
  obtain ⟨-, -, -, -, -, -, -, -, -, -, e10, e11⟩ := idx_facts (pointOf (i 0).val h0)
  rw [mem_blk5]
  intro a
  match a with
  | ⟨0, _⟩ =>
    show win0_5.index (pointOf (i 0).val h0) (0 : Fin 2) * 8192 ≤ (i 0).val ∧ (i 0).val < win0_5.index (pointOf (i 0).val h0) (0 : Fin 2) * 8192 + 8192
    rw [e10]
    show (i 0).val / 8192 * 8192 ≤ (i 0).val ∧ (i 0).val < (i 0).val / 8192 * 8192 + 8192
    omega
  | ⟨1, _⟩ =>
    show win0_5.index (pointOf (i 0).val h0) (1 : Fin 2) * 8 ≤ (i 1).val ∧ (i 1).val < win0_5.index (pointOf (i 0).val h0) (1 : Fin 2) * 8 + 8
    rw [e11]; omega

/-! ## The arrays after the region -/

/-- The row of output samples after the region. -/
theorem final4 (c : Dev nD) :
    (dats m 0 c).arrAt 4 cfg0.N = flatOut (V m c main_v0) (V m c main_v1) (V m c main_v2) :=
  (dats m 0 c).arrAt_eq_of_cover 4 _ (fun t _ => flushed4_eq m c t) cover4

/-- The array of new states after the region. -/
theorem final5 (c : Dev nD) :
    (dats m 0 c).arrAt 5 cfg0.N = flatState (V m c main_v0) (V m c main_v1) (V m c main_v2) (V m c main_v3) :=
  (dats m 0 c).arrAt_eq_of_cover 5 _ (fun t _ => flushed5_eq m c t) cover5

end Cert.KernelBlocks

end
-- ==== Proof.Spec.lean ====
/-
  One step of a direct-form-II-transposed filter, as functions of the argument arrays over the extended reals.

  The arguments: the input sample `x[p, q]` (an array `[256, 32768, 1]`), the filter state `v[p, q, 0..7]`,
  the feed-forward taps `b[0..8]` and the feedback taps `a[0..7]`. The step:

    y[p, q]      = x[p, q] · b[0] + v[p, q, 0]                                 the output sample
    v'[p, q, k]  = (x[p, q] · b[k + 1] − y[p, q] · a[k]) + v[p, q, k + 1]      for k < 7
    v'[p, q, 7]  =  x[p, q] · b[8]     − y[p, q] · a[7]                        the last state has no successor

  Nothing here depends on a program: both the kernel's result arrays and the reference's are shown equal to `Gout`
  and `Gstate`, index by index.
-/
import Idealize.ShloMosaic.PureOps.Ideal
import Idealize.ShloMosaic.Lib.ValueIdx

noncomputable section

namespace Cert.Spec

open Idealize.ShloMosaic Idealize.ShloMosaic.ValueIdx

/-- The output sample `y[p, q] = x[p, q] · b[0] + v[p, q, 0]`. -/
def outAt (x : FVec Ideal ⟨3, ![256, 32768, 1]⟩ .f32) (v : FVec Ideal ⟨3, ![256, 32768, 8]⟩ .f32) (b : FVec Ideal ⟨1, ![9]⟩ .f32)
    (p : Fin 256) (q : Fin 32768) : EReal :=
  x (ix3 p q 0) * b (ix1 0) + v (ix3 p q 0)

/-- State `k` before the shift: `x[p, q] · b[k + 1] − y[p, q] · a[k]`. -/
def tapAt (x : FVec Ideal ⟨3, ![256, 32768, 1]⟩ .f32) (v : FVec Ideal ⟨3, ![256, 32768, 8]⟩ .f32) (b : FVec Ideal ⟨1, ![9]⟩ .f32)
    (a : FVec Ideal ⟨1, ![8]⟩ .f32) (p : Fin 256) (q : Fin 32768) (k : Fin 8) : EReal :=
  x (ix3 p q 0) * b (ix1 ⟨k.val + 1, by have := k.isLt; omega⟩) - outAt x v b p q * a (ix1 k)

/-- The new state `v'[p, q, k]`: state `k` before the shift plus the old state `k + 1`, when there is one. -/
def stateAt (x : FVec Ideal ⟨3, ![256, 32768, 1]⟩ .f32) (v : FVec Ideal ⟨3, ![256, 32768, 8]⟩ .f32) (b : FVec Ideal ⟨1, ![9]⟩ .f32)
    (a : FVec Ideal ⟨1, ![8]⟩ .f32) (p : Fin 256) (q : Fin 32768) (k : Fin 8) : EReal :=
  if h : k.val < 7 then tapAt x v b a p q k + v (ix3 p q ⟨k.val + 1, by omega⟩) else tapAt x v b a p q k

/-- The array of output samples. -/
def Gout (x : FVec Ideal ⟨3, ![256, 32768, 1]⟩ .f32) (v : FVec Ideal ⟨3, ![256, 32768, 8]⟩ .f32) (b : FVec Ideal ⟨1, ![9]⟩ .f32) :
    FVec Ideal ⟨2, ![256, 32768]⟩ .f32 :=
  fun i => outAt x v b (i 0) (i 1)

/-- The array of new states. -/
def Gstate (x : FVec Ideal ⟨3, ![256, 32768, 1]⟩ .f32) (v : FVec Ideal ⟨3, ![256, 32768, 8]⟩ .f32) (b : FVec Ideal ⟨1, ![9]⟩ .f32)
    (a : FVec Ideal ⟨1, ![8]⟩ .f32) : FVec Ideal ⟨3, ![256, 32768, 8]⟩ .f32 :=
  fun i => stateAt x v b a (i 0) (i 1) (i 2)

end Cert.Spec

end
-- ==== Proof.KernelLayout.lean ====
/-
  The flat filter step applied to the reshaped arguments, reshaped back, is the specification.

  Around its region the kernel's program only re-lays arrays: the input `[256, 32768, 1]` becomes the row `[1, N]`, the
  states `[256, 32768, 8]` become `[N, 8]`, the taps become columns; afterwards the row of output samples becomes
  `[256, 32768]` and the new states `[256, 32768, 8]`. A reshape keeps row-major positions, so sample `(p, q)` is flat
  sample `n = 32768·p + q` in every one of them, and `Flat.flatOut` / `Flat.flatState` of the reshaped arguments read at
  `n` are `Spec.outAt` / `Spec.stateAt` at `(p, q)`. The kernel's `+ 0` on the last state disappears here: `z + 0 = z`
  for every extended real `z`.
-/
import proofs.«127173_j50714973831168_2_alg».proof.Proof.Flat
import proofs.«127173_j50714973831168_2_alg».proof.Proof.Spec
import Idealize.ShloMosaic.Lib.Pipeline.Value

noncomputable section

namespace Cert.KernelLayout

open Idealize.ShloMosaic Idealize.ShloMosaic.ValueIdx Cert.Flat

/-- Sample `(p, q)` is flat sample `32768·p + q`. -/
abbrev sampleIx (p : Fin 256) (q : Fin 32768) : Fin 8388608 :=
  ⟨p.val * 32768 + q.val, by have := p.isLt; have := q.isLt; omega⟩

/-! ## The reshapes before the region, read at a flat sample -/

/-- The input as a row: `(0, n)` reads `(p, q, 0)`. -/
theorem row_apply (x : FVec Ideal ⟨3, ![256, 32768, 1]⟩ .f32)
    (h : (⟨3, ![256, 32768, 1]⟩ : Shape).ShapeCasts ⟨2, ![1, 8388608]⟩) (p : Fin 256) (q : Fin 32768) :
    shapeCast ⟨2, ![1, 8388608]⟩ x h (ix2 0 (sampleIx p q)) = x (ix3 p q 0) :=
  shapeCast_apply x h _ _ (by
    rw [Shape.rowMajor_val_three, Shape.rowMajor_val_two]
    show (p.val * 32768 + q.val) * 1 + 0 = 0 * 8388608 + (p.val * 32768 + q.val)
    omega)

/-- The states as `[N, 8]`: `(n, k)` reads `(p, q, k)`. -/
theorem states_apply (v : FVec Ideal ⟨3, ![256, 32768, 8]⟩ .f32)
    (h : (⟨3, ![256, 32768, 8]⟩ : Shape).ShapeCasts ⟨2, ![8388608, 8]⟩) (p : Fin 256) (q : Fin 32768) (k : Fin 8) :
    shapeCast ⟨2, ![8388608, 8]⟩ v h (ix2 (sampleIx p q) k) = v (ix3 p q k) :=
  shapeCast_apply v h _ _ (by
    rw [Shape.rowMajor_val_three, Shape.rowMajor_val_two]
    show (p.val * 32768 + q.val) * 8 + k.val = (p.val * 32768 + q.val) * 8 + k.val
    rfl)

/-- The taps `b` as a column: `(j, 0)` reads `j`. -/
theorem colB_apply (b : FVec Ideal ⟨1, ![9]⟩ .f32) (h : (⟨1, ![9]⟩ : Shape).ShapeCasts ⟨2, ![9, 1]⟩) (j : Fin 9) :
    shapeCast ⟨2, ![9, 1]⟩ b h (ix2 j 0) = b (ix1 j) :=
  shapeCast_apply b h _ _ (by
    rw [Shape.rowMajor_val_one, Shape.rowMajor_val_two]
    show j.val = j.val * 1 + 0
    omega)

/-- The taps `a` as a column: `(k, 0)` reads `k`. -/
theorem colA_apply (a : FVec Ideal ⟨1, ![8]⟩ .f32) (h : (⟨1, ![8]⟩ : Shape).ShapeCasts ⟨2, ![8, 1]⟩) (k : Fin 8) :
    shapeCast ⟨2, ![8, 1]⟩ a h (ix2 k 0) = a (ix1 k) :=
  shapeCast_apply a h _ _ (by
    rw [Shape.rowMajor_val_one, Shape.rowMajor_val_two]
    show k.val = k.val * 1 + 0
    omega)

/-! ## The reshapes after the region, read at a sample -/

/-- The row of output samples as `[256, 32768]`: `(p, q)` reads `(0, n)`. -/
theorem out_apply (Y : Vec Ideal ⟨2, ![1, 8388608]⟩ .f32)
    (h : (⟨2, ![1, 8388608]⟩ : Shape).ShapeCasts ⟨2, ![256, 32768]⟩) (p : Fin 256) (q : Fin 32768) :
    shapeCast ⟨2, ![256, 32768]⟩ Y h (ix2 p q) = Y (ix2 0 (sampleIx p q)) :=
  shapeCast_apply Y h _ _ (by
    rw [Shape.rowMajor_val_two, Shape.rowMajor_val_two]
    show 0 * 8388608 + (p.val * 32768 + q.val) = p.val * 32768 + q.val
    omega)

/-- The new states as `[256, 32768, 8]`: `(p, q, k)` reads `(n, k)`. -/
theorem state_apply (W : Vec Ideal ⟨2, ![8388608, 8]⟩ .f32)
    (h : (⟨2, ![8388608, 8]⟩ : Shape).ShapeCasts ⟨3, ![256, 32768, 8]⟩) (p : Fin 256) (q : Fin 32768) (k : Fin 8) :
    shapeCast ⟨3, ![256, 32768, 8]⟩ W h (ix3 p q k) = W (ix2 (sampleIx p q) k) :=
  shapeCast_apply W h _ _ (by
    rw [Shape.rowMajor_val_two, Shape.rowMajor_val_three]
    show (p.val * 32768 + q.val) * 8 + k.val = (p.val * 32768 + q.val) * 8 + k.val
    rfl)

/-! ## The two results -/

/-- The flat output samples of the reshaped arguments, reshaped back, are the specification's. -/
theorem out_eq (x : FVec Ideal ⟨3, ![256, 32768, 1]⟩ .f32) (v : FVec Ideal ⟨3, ![256, 32768, 8]⟩ .f32) (b : FVec Ideal ⟨1, ![9]⟩ .f32)
    (h0 : (⟨3, ![256, 32768, 1]⟩ : Shape).ShapeCasts ⟨2, ![1, 8388608]⟩)
    (h1 : (⟨3, ![256, 32768, 8]⟩ : Shape).ShapeCasts ⟨2, ![8388608, 8]⟩)
    (h2 : (⟨1, ![9]⟩ : Shape).ShapeCasts ⟨2, ![9, 1]⟩)
    (h5 : (⟨2, ![1, 8388608]⟩ : Shape).ShapeCasts ⟨2, ![256, 32768]⟩) :
    shapeCast ⟨2, ![256, 32768]⟩
        (flatOut (shapeCast ⟨2, ![1, 8388608]⟩ x h0) (shapeCast ⟨2, ![8388608, 8]⟩ v h1) (shapeCast ⟨2, ![9, 1]⟩ b h2)) h5
      = Spec.Gout x v b := by
  funext i
  obtain ⟨p, q, rfl⟩ : ∃ (p : Fin 256) (q : Fin 32768), i = ix2 p q := ⟨i 0, i 1, eq_ix2 i⟩
  rw [out_apply, flatOut_apply]
  unfold flatOutAt
  rw [row_apply, colB_apply, states_apply]
  rfl

/-- The flat new states of the reshaped arguments, reshaped back, are the specification's. -/
theorem state_eq (x : FVec Ideal ⟨3, ![256, 32768, 1]⟩ .f32) (v : FVec Ideal ⟨3, ![256, 32768, 8]⟩ .f32) (b : FVec Ideal ⟨1, ![9]⟩ .f32)
    (a : FVec Ideal ⟨1, ![8]⟩ .f32)
    (h0 : (⟨3, ![256, 32768, 1]⟩ : Shape).ShapeCasts ⟨2, ![1, 8388608]⟩)
    (h1 : (⟨3, ![256, 32768, 8]⟩ : Shape).ShapeCasts ⟨2, ![8388608, 8]⟩)
    (h2 : (⟨1, ![9]⟩ : Shape).ShapeCasts ⟨2, ![9, 1]⟩)
    (h3 : (⟨1, ![8]⟩ : Shape).ShapeCasts ⟨2, ![8, 1]⟩)
    (h6 : (⟨2, ![8388608, 8]⟩ : Shape).ShapeCasts ⟨3, ![256, 32768, 8]⟩) :
    shapeCast ⟨3, ![256, 32768, 8]⟩
        (flatState (shapeCast ⟨2, ![1, 8388608]⟩ x h0) (shapeCast ⟨2, ![8388608, 8]⟩ v h1) (shapeCast ⟨2, ![9, 1]⟩ b h2)
          (shapeCast ⟨2, ![8, 1]⟩ a h3)) h6
      = Spec.Gstate x v b a := by
  funext i
  obtain ⟨p, q, k, rfl⟩ : ∃ (p : Fin 256) (q : Fin 32768) (k : Fin 8), i = ix3 p q k := ⟨i 0, i 1, i 2, eq_ix3 i⟩
  rw [state_apply, flatState_apply]
  unfold flatStateAt flatOutAt
  rw [row_apply, colB_apply, colB_apply, colA_apply, states_apply]
  show _ = Spec.stateAt x v b a p q k
  unfold Spec.stateAt Spec.tapAt Spec.outAt
  by_cases h : k.val < 7
  · rw [dif_pos h, dif_pos h, states_apply]
  · rw [dif_neg h, dif_neg h, add_zero]

end Cert.KernelLayout

end
-- ==== Proof.KernelValue.lean ====
/-
  The kernel's program, read as values: every weakly fair execution ends with its two results at the specification's
  arrays of its arguments, and the arguments unchanged.

  The program reshapes its four arguments (to a row, to `[N, 8]`, to two columns), launches the region, and reshapes
  the region's two output arrays back. The reshapes before the region give the arrays the region finds; the region
  leaves `Flat.flatOut` and `Flat.flatState` of those in its two output arrays; the reshapes after it read those
  arrays; and the flat functions of reshaped arguments, reshaped back, are `Spec.Gout` and `Spec.Gstate`.
-/
import proofs.«127173_j50714973831168_2_alg».proof.Proof.KernelBlocks
import proofs.«127173_j50714973831168_2_alg».proof.Proof.KernelLayout
import Idealize.ShloMosaic.Lib.StableHlo.Run

set_option maxRecDepth 16384

noncomputable section

namespace Cert.KernelValue

open Cert.KernelIdeal Cert.KernelIdeal.Gen Idealize.ShloMosaic Idealize.ShloMosaic.TcCoe Idealize.SL.Sem
open Idealize.ShloMosaic.StableHlo Cert.Flat

variable (m : (ℓ : Loc nD τ sig) → Buf (Elt Ideal) ℓ) (ρ : Dev nD → PrngReg)

/-! ## The arrays the region finds -/

/-- The region finds the input as a row. -/
theorem V_v0 (c : Dev nD) :
    (V m c main_v0 : S1x8388608.Idx → EReal)
      = shapeCast S1x8388608 (m ((c : Thread nD τ).loc main_arg0)) shapeCasts_S256x32768x1_S1x8388608 := by
  show StableHlo.after hostOps0 (fun b => m (c, b)) (Proc.devRef .tc main_v0) = _
  after_results <;> rfl

/-- The region finds the states as `[N, 8]`. -/
theorem V_v1 (c : Dev nD) :
    (V m c main_v1 : S8388608x8.Idx → EReal)
      = shapeCast S8388608x8 (m ((c : Thread nD τ).loc main_arg1)) shapeCasts_S256x32768x8_S8388608x8 := by
  show StableHlo.after hostOps0 (fun b => m (c, b)) (Proc.devRef .tc main_v1) = _
  after_results <;> rfl

/-- The region finds the taps `b` as a column. -/
theorem V_v2 (c : Dev nD) :
    (V m c main_v2 : S9x1.Idx → EReal)
      = shapeCast S9x1 (m ((c : Thread nD τ).loc main_arg2)) shapeCasts_S9_S9x1 := by
  show StableHlo.after hostOps0 (fun b => m (c, b)) (Proc.devRef .tc main_v2) = _
  after_results <;> rfl

/-- The region finds the taps `a` as a column. -/
theorem V_v3 (c : Dev nD) :
    (V m c main_v3 : S8x1.Idx → EReal)
      = shapeCast S8x1 (m ((c : Thread nD τ).loc main_arg3)) shapeCasts_S8_S8x1 := by
  show StableHlo.after hostOps0 (fun b => m (c, b)) (Proc.devRef .tc main_v3) = _
  after_results <;> rfl

/-! ## The reshapes after the region -/

/-- The first result is the region's row of output samples, reshaped to `[256, 32768]`. -/
theorem tail_v5 (c : Dev nD) :
    Pipeline.afterTail₀ cfgs (dats m) 0 (V0 m) [hostOps1] c main_v5
      = shapeCast S256x32768 (flatOut (V m c main_v0) (V m c main_v1) (V m c main_v2)) shapeCasts_S1x8388608_S256x32768 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4_0)
      = flatOut (V m c main_v0) (V m c main_v1) (V m c main_v2) :=
    (Pipeline.withArrays_arr spec0 launch0.win.arr_inj c (V0 m c) _ 4).trans (KernelBlocks.final4 m c)
  rw [e]
  rfl

/-- The second result is the region's array of new states, reshaped to `[256, 32768, 8]`. -/
theorem tail_v6 (c : Dev nD) :
    Pipeline.afterTail₀ cfgs (dats m) 0 (V0 m) [hostOps1] c main_v6
      = shapeCast S256x32768x8 (flatState (V m c main_v0) (V m c main_v1) (V m c main_v2) (V m c main_v3))
          shapeCasts_S8388608x8_S256x32768x8 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v4_1)
      = flatState (V m c main_v0) (V m c main_v1) (V m c main_v2) (V m c main_v3) :=
    (Pipeline.withArrays_arr spec0 launch0.win.arr_inj c (V0 m c) _ 5).trans (KernelBlocks.final5 m c)
  rw [e]
  rfl

/-! ## The two results -/

/-- The first result is the specification's array of output samples of the arguments. -/
theorem result_v5 (c : Dev nD) :
    Pipeline.afterTail₀ cfgs (dats m) 0 (V0 m) [hostOps1] c main_v5
      = Spec.Gout (m ((c : Thread nD τ).loc main_arg0)) (m ((c : Thread nD τ).loc main_arg1)) (m ((c : Thread nD τ).loc main_arg2)) := by
  rw [tail_v5, V_v0, V_v1, V_v2]
  exact KernelLayout.out_eq _ _ _ _ _ _ _

/-- The second result is the specification's array of new states of the arguments. -/
theorem result_v6 (c : Dev nD) :
    Pipeline.afterTail₀ cfgs (dats m) 0 (V0 m) [hostOps1] c main_v6
      = Spec.Gstate (m ((c : Thread nD τ).loc main_arg0)) (m ((c : Thread nD τ).loc main_arg1)) (m ((c : Thread nD τ).loc main_arg2))
          (m ((c : Thread nD τ).loc main_arg3)) := by
  rw [tail_v6, V_v0, V_v1, V_v2, V_v3]
  exact KernelLayout.state_eq _ _ _ _ _ _ _ _ _

/-! ## The run -/

/-- Every weakly fair execution of the kernel's program terminates with the two results at the specification's arrays
    of the arguments, and the arguments unchanged. -/
theorem run : θ_run defs (onTc (τ := τ) (main (F := Ideal))) ⟨m, fun _ => 0, ρ⟩ fun r => ∀ c : Dev nD,
      r.2.mem ((c.tc : Thread nD τ).loc main_v5)
        = Spec.Gout (m ((c.tc : Thread nD τ).loc main_arg0)) (m ((c.tc : Thread nD τ).loc main_arg1)) (m ((c.tc : Thread nD τ).loc main_arg2))
      ∧ r.2.mem ((c.tc : Thread nD τ).loc main_v6)
        = Spec.Gstate (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (result_v5 m c),
      ((h c).2 main_v6 (Pipeline.mem_restRefs_of main_v6 (by decide) (by decide))).trans (result_v6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelValue

end
-- ==== Proof.LibScatterAt.lean ====
/-
  A host scatter with any body, read at one operand index.

  The scatter visits the update indices one after another. A visit whose landing index is `i` replaces the
  value held at `i` by the body applied to that value and the update's element; every other visit leaves
  the value at `i` alone. So the value at `i` after all visits is decided by the visits that land on `i`
  alone: when no update index lands on `i` it is the operand's element, and when exactly one does it is the
  body of the operand's element and that update's element — whatever the order of the visits, and for any
  body (an accumulating `add` as well as a replacing `set`).

  One family of instances is worked out: an update of shape `[A, B, C']` scattered into an operand of shape
  `[A, B, C]` (`C' ≤ C`) at the single scatter index `0`, which names the start on the last axis — jax's
  `x.at[..., :C'].add(u)`. Update `(p, q, k)` lands on operand `(p, q, k)`, so the result is the body of
  operand and update on the first `C'` positions of the last axis and the operand beyond them.
-/
import Idealize.ShloMosaic.PureOps.ShapeOps
import Idealize.ShloMosaic.Lib.ValueIdx

namespace Idealize.ShloMosaic

/-- A left fold of steps acting on functions, read at a point `i` that no step of the list changes, is the
    starting function at `i`. -/
theorem foldl_apply_of_untouched {β γ ι : Type} (g : (β → γ) → ι → (β → γ)) (i : β) (L : List ι)
    (h : ∀ (r : β → γ), ∀ n ∈ L, g r n i = r i) (r : β → γ) : L.foldl g r i = r i := by
  induction L generalizing r with
  | nil => rfl
  | cons a L ih =>
    rw [List.foldl_cons, ih (fun r n hn => h r n (List.mem_cons_of_mem _ hn)) (g r a),
      h r a (List.mem_cons_self ..)]

/-- A left fold of steps acting on functions, over a list without repeats, read at a point `i` that exactly
    one step `n₀` of the list changes — by `φ` of the value it finds there —, is `φ` of the starting value:
    the steps before `n₀` leave the value at `i` as it started, and so do the steps after it. -/
theorem foldl_apply_of_touched_once {β γ ι : Type} (g : (β → γ) → ι → (β → γ)) (i : β) (n₀ : ι) (φ : γ → γ)
    (hhit : ∀ r : β → γ, g r n₀ i = φ (r i)) (hmiss : ∀ (r : β → γ) (n : ι), n ≠ n₀ → g r n i = r i)
    (L : List ι) (hnd : L.Nodup) (hmem : n₀ ∈ L) (r : β → γ) : L.foldl g r i = φ (r i) := by
  induction L generalizing r with
  | nil => cases hmem
  | cons a L ih =>
    rw [List.foldl_cons]
    have hnd' := List.nodup_cons.1 hnd
    by_cases ha : a = n₀
    · subst ha
      rw [foldl_apply_of_untouched g i L (fun r n hn => hmiss r n (fun e => hnd'.1 (e ▸ hn))), hhit]
    · rw [ih hnd'.2 ((List.mem_cons.1 hmem).resolve_left (fun e => ha e.symm)), hmiss r a ha]

/-- A scatter read at an operand index `i` that NO update index lands on is the operand's element. -/
theorem Host.scatter_apply_of_none {α : Type} {s si u : Shape} {w : Nat} (d : ScatterDims s si u) (f : α → α → α)
    (x : s.Idx → α) (idx : IVec si w) (upd : u.Idx → α) (i : s.Idx)
    (hnone : ∀ j : u.Idx, d.resultIdx? j idx ≠ some i) :
    Host.scatter d f x idx upd i = x i := by
  unfold Host.scatter
  refine foldl_apply_of_untouched _ i _ (fun r n _ => ?_) x
  cases h : d.resultIdx? (u.rowMajor.symm n) idx with
  | none => rfl
  | some i0 =>
    have hi : i ≠ i0 := fun e => hnone _ (by rw [h, e])
    simp only [if_neg hi]

/-- A scatter read at an operand index `i` that EXACTLY ONE update index `j` lands on is the body applied to
    the operand's element and that update's element. -/
theorem Host.scatter_apply_of_unique {α : Type} {s si u : Shape} {w : Nat} (d : ScatterDims s si u) (f : α → α → α)
    (x : s.Idx → α) (idx : IVec si w) (upd : u.Idx → α) (j : u.Idx) (i : s.Idx)
    (hj : d.resultIdx? j idx = some i) (huniq : ∀ j' : u.Idx, d.resultIdx? j' idx = some i → j' = j) :
    Host.scatter d f x idx upd i = f (x i) (upd j) := by
  unfold Host.scatter
  refine foldl_apply_of_touched_once _ i (u.rowMajor j) (fun a => f a (upd j)) ?_ ?_ _
    (List.nodup_finRange _) (List.mem_finRange _) x
  · intro r
    simp only [Equiv.symm_apply_apply, hj, if_true]
  · intro r n hn
    have hne : d.resultIdx? (u.rowMajor.symm n) idx ≠ some i := fun h =>
      hn (by rw [← huniq _ h, Equiv.apply_symm_apply])
    cases h : d.resultIdx? (u.rowMajor.symm n) idx with
    | none => rfl
    | some i0 =>
      have hi : i ≠ i0 := fun e => hne (by rw [h, e])
      simp only [if_neg hi]

/-! ## An `[A, B, C']` update scattered at start `0` of the last axis of an `[A, B, C]` operand -/

section LastAxisPrefix
variable {α : Type} {A B C C' : Nat}

/-- The dimension numbers: all three update axes are window axes, no operand axis is inserted, and the one
    scalar scatter index is the start on operand axis 2. -/
abbrev scatterLastAxisDims (A B C C' : Nat)
    (hwf : ScatterDims.WF ⟨3, ![A, B, C]⟩ ⟨1, ![1]⟩ ⟨3, ![A, B, C']⟩ [0, 1, 2] [] [2] 0) :
    ScatterDims ⟨3, ![A, B, C]⟩ ⟨1, ![1]⟩ ⟨3, ![A, B, C']⟩ :=
  { updateWindowDims := [0, 1, 2], insertedWindowDims := [], scatterDimsToOperandDims := [2], indexVectorDim := 0, wf := hwf }

/-- With the scatter index `0` every window starts at `0` on every axis: axes 0 and 1 are not in the map,
    axis 2 reads the index. -/
theorem scatterLastAxisDims_start (hwf : ScatterDims.WF ⟨3, ![A, B, C]⟩ ⟨1, ![1]⟩ ⟨3, ![A, B, C']⟩ [0, 1, 2] [] [2] 0)
    (idx : IVec ⟨1, ![1]⟩ 32) (hidx : ∀ b, idx b = 0#32) (j : (⟨3, ![A, B, C']⟩ : Shape).Idx) (a : Fin 3) :
    (scatterLastAxisDims A B C C' hwf).start j idx a = 0 := by
  unfold ScatterDims.start
  split
  · rw [hidx]; rfl
  · rfl

/-- The window coordinate on each operand axis is the update index's coordinate on the same axis. -/
theorem scatterLastAxisDims_window (hwf : ScatterDims.WF ⟨3, ![A, B, C]⟩ ⟨1, ![1]⟩ ⟨3, ![A, B, C']⟩ [0, 1, 2] [] [2] 0)
    (j : (⟨3, ![A, B, C']⟩ : Shape).Idx) (a : Fin 3) :
    (scatterLastAxisDims A B C C' hwf).window j a = (j a).val := by
  match a with
  | ⟨0, _⟩ => rfl
  | ⟨1, _⟩ => rfl
  | ⟨2, _⟩ => rfl

/-- With the scatter index `0`, update index `(p, q, k)` lands on operand index `(p, q, k)`. -/
theorem scatterLastAxisDims_resultIdx (hC : C' ≤ C)
    (hwf : ScatterDims.WF ⟨3, ![A, B, C]⟩ ⟨1, ![1]⟩ ⟨3, ![A, B, C']⟩ [0, 1, 2] [] [2] 0)
    (idx : IVec ⟨1, ![1]⟩ 32) (hidx : ∀ b, idx b = 0#32) (j : (⟨3, ![A, B, C']⟩ : Shape).Idx) :
    (scatterLastAxisDims A B C C' hwf).resultIdx? j idx =
      some (ValueIdx.ix3 (j 0) (j 1) ⟨(j 2).val, lt_of_lt_of_le (show (j 2).val < C' from (j 2).isLt) hC⟩) := by
  have hs := scatterLastAxisDims_start (C := C) hwf idx hidx j
  have hw := scatterLastAxisDims_window (C := C) hwf j
  have h0 : (j 0).val < A := (j 0).isLt
  have h1 : (j 1).val < B := (j 1).isLt
  have h2 : (j 2).val < C' := (j 2).isLt
  have H : ∀ a : Fin 3, 0 ≤ (scatterLastAxisDims A B C C' hwf).start j idx a + (scatterLastAxisDims A B C C' hwf).window j a ∧
      (scatterLastAxisDims A B C C' hwf).start j idx a + (scatterLastAxisDims A B C C' hwf).window j a < (![A, B, C] a : Nat) := by
    intro a
    rw [hs, hw]
    match a with
    | ⟨0, _⟩ => exact ⟨by omega, by show (0 : Int) + ((j 0).val : Int) < (A : Int); omega⟩
    | ⟨1, _⟩ => exact ⟨by omega, by show (0 : Int) + ((j 1).val : Int) < (B : Int); omega⟩
    | ⟨2, _⟩ => exact ⟨by omega, by show (0 : Int) + ((j 2).val : Int) < (C : Int); omega⟩
  unfold ScatterDims.resultIdx?
  rw [dif_pos H]
  congr 1
  funext a
  apply Fin.ext
  show ((scatterLastAxisDims A B C C' hwf).start j idx a + (scatterLastAxisDims A B C C' hwf).window j a).toNat = _
  rw [hs, hw]
  match a with
  | ⟨0, _⟩ => show ((0 : Int) + ((j 0).val : Int)).toNat = (j 0).val; omega
  | ⟨1, _⟩ => show ((0 : Int) + ((j 1).val : Int)).toNat = (j 1).val; omega
  | ⟨2, _⟩ => show ((0 : Int) + ((j 2).val : Int)).toNat = (j 2).val; omega

/-- An `[A, B, C']` update scattered with body `f` at start `0` of the last axis of an `[A, B, C]` operand,
    read at `(p, q, k)`: the body of the operand's and the update's elements at `(p, q, k)` when `k < C'`. -/
theorem Host.scatter_lastAxis_prefix_apply_lt (hC : C' ≤ C)
    (hwf : ScatterDims.WF ⟨3, ![A, B, C]⟩ ⟨1, ![1]⟩ ⟨3, ![A, B, C']⟩ [0, 1, 2] [] [2] 0) (f : α → α → α)
    (x : (⟨3, ![A, B, C]⟩ : Shape).Idx → α) (idx : IVec ⟨1, ![1]⟩ 32) (hidx : ∀ b, idx b = 0#32)
    (upd : (⟨3, ![A, B, C']⟩ : Shape).Idx → α) (p : Fin A) (q : Fin B) (k : Fin C) (hk : k.val < C') :
    Host.scatter (scatterLastAxisDims A B C C' hwf) f x idx upd (ValueIdx.ix3 p q k)
      = f (x (ValueIdx.ix3 p q k)) (upd (ValueIdx.ix3 p q ⟨k.val, hk⟩)) := by
  refine Host.scatter_apply_of_unique (scatterLastAxisDims A B C C' hwf) f x idx upd (ValueIdx.ix3 p q ⟨k.val, hk⟩)
    (ValueIdx.ix3 p q k) ?_ ?_
  · rw [scatterLastAxisDims_resultIdx hC hwf idx hidx]
    rfl
  · intro j' hj'
    rw [scatterLastAxisDims_resultIdx hC hwf idx hidx] at hj'
    have e := Option.some.inj hj'
    have e0 : j' 0 = p := congrFun e (0 : Fin 3)
    have e1 : j' 1 = q := congrFun e (1 : Fin 3)
    have e2 : (j' 2).val = k.val := congrArg Fin.val (congrFun e (2 : Fin 3))
    funext a
    match a with
    | ⟨0, _⟩ => exact e0
    | ⟨1, _⟩ => exact e1
    | ⟨2, _⟩ => exact Fin.ext e2

/-- The same read at `(p, q, k)` with `C' ≤ k`: no update lands there, and the operand's element stays. -/
theorem Host.scatter_lastAxis_prefix_apply_ge (hC : C' ≤ C)
    (hwf : ScatterDims.WF ⟨3, ![A, B, C]⟩ ⟨1, ![1]⟩ ⟨3, ![A, B, C']⟩ [0, 1, 2] [] [2] 0) (f : α → α → α)
    (x : (⟨3, ![A, B, C]⟩ : Shape).Idx → α) (idx : IVec ⟨1, ![1]⟩ 32) (hidx : ∀ b, idx b = 0#32)
    (upd : (⟨3, ![A, B, C']⟩ : Shape).Idx → α) (p : Fin A) (q : Fin B) (k : Fin C) (hk : C' ≤ k.val) :
    Host.scatter (scatterLastAxisDims A B C C' hwf) f x idx upd (ValueIdx.ix3 p q k) = x (ValueIdx.ix3 p q k) := by
  refine Host.scatter_apply_of_none (scatterLastAxisDims A B C C' hwf) f x idx upd (ValueIdx.ix3 p q k) ?_
  intro j' hj'
  rw [scatterLastAxisDims_resultIdx hC hwf idx hidx] at hj'
  have e2 : (j' 2).val = k.val := congrArg Fin.val (congrFun (Option.some.inj hj') (2 : Fin 3))
  have h2 : (j' 2).val < C' := (j' 2).isLt
  omega

end LastAxisPrefix

end Idealize.ShloMosaic
-- ==== Proof.RefValue.lean ====
/-
  The reference's two results are `Spec.Gout` and `Spec.Gstate` of its arguments, index by index.

  The output sample is read through the reference's operations one at a time: the product with the broadcast
  scalar `b[0]`, the slice `v[..., 0:1]`, the sum, and the final reshape that drops the unit axis. The new state is
  the scatter of `v[..., 1:8]` (an update of extent 7 on the last axis, placed at start 0) with body `add` into
  `x · b[1:] − y · a`: position `k < 7` of the last axis meets exactly the update element `v[..., k + 1]`, position
  7 meets none.
-/
import proofs.«127173_j50714973831168_2_alg».proof.Proof.Gen.ReferenceIdeal.Read
import proofs.«127173_j50714973831168_2_alg».proof.Proof.Spec
import proofs.«127173_j50714973831168_2_alg».proof.Proof.LibScatterAt

noncomputable section

namespace Cert.RefValue

open Cert.ReferenceIdeal Cert.ReferenceIdeal.Gen Idealize.ShloMosaic Idealize.ShloMosaic.ValueIdx

/-! ## Index bookkeeping -/

/-- The reshape `[256, 32768] → [256, 32768, 1]` reads `(p, q)` at `(p, q, 0)`. -/
theorem idx19 (i : S256x32768.Idx) :
    Read.idx_main_v19 i = ix3 (⟨(i 0).val, (i 0).isLt⟩ : Fin 256) (⟨(i 1).val, (i 1).isLt⟩ : Fin 32768) (0 : Fin 1) := by
  have h0 : (i 0).val < 256 := (i 0).isLt
  have h1 : (i 1).val < 32768 := (i 1).isLt
  funext a
  apply Fin.ext
  match a with
  | ⟨0, _⟩ => show ((i 0).val * 32768 + (i 1).val) / 32768 = (i 0).val; omega
  | ⟨1, _⟩ => show ((i 0).val * 32768 + (i 1).val) / 1 % 32768 = (i 1).val; omega
  | ⟨2, _⟩ => rfl

/-- The slice `v[..., 0:1]` reads `(p, q, 0)` at `(p, q, 0)`. -/
theorem idx4 (p : Fin 256) (q : Fin 32768) : Read.idx_main_v4 (ix3 p q 0) = ix3 p q 0 := by
  funext a
  match a with
  | ⟨0, _⟩ => rfl
  | ⟨1, _⟩ => rfl
  | ⟨2, _⟩ => rfl

/-- The broadcasts of the `[256, 32768, 1]` arrays along the last axis read `(p, q, k)` at `(p, q, 0)`. -/
theorem idx8 (p : Fin 256) (q : Fin 32768) (k : Fin 8) : Read.idx_main_v8 (ix3 p q k) = ix3 p q 0 := by
  funext a
  match a with
  | ⟨0, _⟩ => rfl
  | ⟨1, _⟩ => rfl
  | ⟨2, _⟩ => rfl

theorem idx12 (p : Fin 256) (q : Fin 32768) (k : Fin 8) : Read.idx_main_v12 (ix3 p q k) = ix3 p q 0 := by
  funext a
  match a with
  | ⟨0, _⟩ => rfl
  | ⟨1, _⟩ => rfl
  | ⟨2, _⟩ => rfl

/-- The slice `v[..., 1:8]` reads `(p, q, k)` at `(p, q, k + 1)`. -/
theorem idx16 (p : Fin 256) (q : Fin 32768) (k : Fin 7) :
    Read.idx_main_v16 (ix3 p q k) = ix3 p q ⟨k.val + 1, by have := k.isLt; omega⟩ := by
  funext a
  apply Fin.ext
  match a with
  | ⟨0, _⟩ => rfl
  | ⟨1, _⟩ => rfl
  | ⟨2, _⟩ => show 1 + k.val = k.val + 1; omega

/-- The taps' composed index maps: `b[1:9]` broadcast along the first two axes reads `(p, q, k)` at `k + 1`, -/
theorem idxB (p : Fin 256) (q : Fin 32768) (k : Fin 8) :
    Read.idx_main_v6 (Read.idx_main_v7 (Read.idx_main_v9 (ix3 p q k))) = ix1 ⟨k.val + 1, by have := k.isLt; omega⟩ := by
  funext d
  apply Fin.ext
  match d with
  | ⟨0, _⟩ => show 1 + k.val = k.val + 1; omega

/-- and `a` broadcast along the first two axes reads `(p, q, k)` at `k`. -/
theorem idxA (p : Fin 256) (q : Fin 32768) (k : Fin 8) :
    Read.idx_main_v11 (Read.idx_main_v13 (ix3 p q k)) = ix1 k := by
  funext d
  match d with
  | ⟨0, _⟩ => rfl

/-! ## The scalar `b[0]` -/

/-- A position in an array of one element is 0. -/
theorem val_eq_zero_of_numel_one {s : Shape} (h : s.numel = 1) (n : Fin s.numel) : n.val = 0 := by
  have := n.isLt; omega

/-- The slice `b[0:1]` reads `0` at `0`. -/
theorem idx0 : Read.idx_main_v0 (ix1 (0 : Fin 1)) = ix1 (0 : Fin 9) := by
  funext d
  match d with
  | ⟨0, _⟩ => rfl

/-- `b[0:1]` reshaped to a scalar reads `b[0]`. -/
theorem v1_apply (b : FVec Ideal S9 .f32) (j : S_.Idx) : Read.val_main_v1 (F := Ideal) b j = b (ix1 0) := by
  unfold Read.val_main_v1
  rw [shapeCast_apply (Read.val_main_v0 (F := Ideal) b) shapeCasts_S1_S_ j (ix1 (0 : Fin 1))
    ((val_eq_zero_of_numel_one (by decide) _).trans (val_eq_zero_of_numel_one (by decide) _).symm),
    Read.val_main_v0_apply, idx0]

/-! ## The output sample -/

/-- The sum `x · b[0] + v[..., 0]` at `(p, q, 0)`. -/
theorem v5_apply (x : FVec Ideal S256x32768x1 .f32) (v : FVec Ideal S256x32768x8 .f32) (b : FVec Ideal S9 .f32)
    (p : Fin 256) (q : Fin 32768) :
    Read.val_main_v5 (F := Ideal) x v b (ix3 p q 0) = Spec.outAt x v b p q := by
  rw [Read.val_main_v5_apply, Read.val_main_v3_apply, Read.val_main_v2_apply, Read.val_main_v4_apply, v1_apply, idx4]
  rfl

/-- The reference's first result is the array of output samples. -/
theorem out_eq (x : FVec Ideal S256x32768x1 .f32) (v : FVec Ideal S256x32768x8 .f32) (b : FVec Ideal S9 .f32) :
    Read.val_main_v19 (F := Ideal) x v b = Spec.Gout x v b := by
  funext i
  rw [Read.val_main_v19_apply, idx19, v5_apply]
  rfl

/-! ## The new state -/

/-- State `k` before the shift, `x · b[k + 1] − y · a[k]`, at `(p, q, k)`. -/
theorem v15_apply (x : FVec Ideal S256x32768x1 .f32) (v : FVec Ideal S256x32768x8 .f32) (b : FVec Ideal S9 .f32)
    (a : FVec Ideal S8 .f32) (p : Fin 256) (q : Fin 32768) (k : Fin 8) :
    Read.val_main_v15 (F := Ideal) x v b a (ix3 p q k) = Spec.tapAt x v b a p q k := by
  rw [Read.val_main_v15_apply, Read.val_main_v10_apply, Read.val_main_v14_apply, Read.val_main_v8_apply,
    Read.val_main_v9_apply, Read.val_main_v7_apply, Read.val_main_v6_apply, Read.val_main_v12_apply,
    Read.val_main_v13_apply, Read.val_main_v11_apply, idx8, idx12, v5_apply, idxB, idxA]
  rfl

/-- The scatter's one index is `0`. -/
theorem v17_zero (j : S1.Idx) : Read.val_main_v17 (F := Ideal) j = 0#32 := by
  rw [Read.val_main_v17_apply, Read.val_main_c_apply]

/-- The reference's second result is the array of new states. -/
theorem state_eq (x : FVec Ideal S256x32768x1 .f32) (v : FVec Ideal S256x32768x8 .f32) (b : FVec Ideal S9 .f32)
    (a : FVec Ideal S8 .f32) :
    Read.val_main_v18 (F := Ideal) x v b a = Spec.Gstate x v b a := by
  funext i
  obtain ⟨p, q, k, rfl⟩ : ∃ (p : Fin 256) (q : Fin 32768) (k : Fin 8), i = ix3 p q k := ⟨i 0, i 1, i 2, eq_ix3 i⟩
  unfold Read.val_main_v18
  show _ = Spec.stateAt x v b a p q k
  unfold Spec.stateAt
  by_cases hk : k.val < 7
  · rw [dif_pos hk]
    refine (Host.scatter_lastAxis_prefix_apply_lt (A := 256) (B := 32768) (C := 8) (C' := 7) (by decide)
      scatter_S256x32768x8_S1_S256x32768x7_012_n_2_0_wf FloatOps.addf _ _ v17_zero _ p q k hk).trans ?_
    rw [v15_apply, Read.val_main_v16_apply, idx16 p q ⟨k.val, hk⟩]
    rfl
  · rw [dif_neg hk]
    refine (Host.scatter_lastAxis_prefix_apply_ge (A := 256) (B := 32768) (C := 8) (C' := 7) (by decide)
      scatter_S256x32768x8_S1_S256x32768x7_012_n_2_0_wf FloatOps.addf _ _ v17_zero _ p q k (by omega)).trans ?_
    exact v15_apply x v b a p q k

end Cert.RefValue

end
-- ==== Proof.lean ====
/-
  One step of a direct-form-II-transposed filter: the kernel against its jnp reference, over the extended reals.

  For every sample `(p, q)` of a `[256, 32768]` batch, with input `x`, state `v[0..7]`, feed-forward taps `b[0..8]` and
  feedback taps `a[0..7]`, both programs compute

    y      = x · b[0] + v[0]
    v'[k]  = (x · b[k + 1] − y · a[k]) + v[k + 1]     (k < 7),        v'[7] = x · b[8] − y · a[7]

  (`Spec.Gout`, `Spec.Gstate`). The reference spells the shift of the state as a scatter-add of `v[1:8]` onto the first
  seven positions; read at an index, position `k < 7` meets exactly one update element and position 7 none
  (Proof/LibScatterAt.lean, Proof/RefValue.lean). The kernel flattens the batch to `N = 8388608` samples, works tile by
  tile on the transposed state, and gets the shifted state by rotating the eight state rows by one and masking the
  wrapped row to `0`, so its last state is `(x · b[8] − y · a[7]) + 0`; the tiles of 1024 grid points cover the arrays
  (Proof/KernelPayload.lean, Proof/KernelBlocks.lean, Proof/KernelLayout.lean, Proof/KernelValue.lean). The two agree
  because the same products, difference and sums are taken in the same order on both sides, and `z + 0 = z` for every
  extended real `z`: no law that fails at an infinity is used, so the finiteness of the inputs is never opened.

  The kernel's idealization rewrote no operation, so nothing is owed for it; the three frames are the generated ones
  (the reference's is its generated run with the results dropped).
-/
import proofs.«127173_j50714973831168_2_alg».proof.Defs
import proofs.«127173_j50714973831168_2_alg».proof.Proof.Gen.Kernel
import proofs.«127173_j50714973831168_2_alg».proof.Proof.Gen.Kernel.Skeleton
import proofs.«127173_j50714973831168_2_alg».proof.Proof.Gen.Kernel.Launch
import proofs.«127173_j50714973831168_2_alg».proof.Proof.Gen.Kernel.Points
import proofs.«127173_j50714973831168_2_alg».proof.Proof.Gen.Kernel.Frame
import proofs.«127173_j50714973831168_2_alg».proof.Proof.Gen.KernelIdeal
import proofs.«127173_j50714973831168_2_alg».proof.Proof.Gen.KernelIdeal.Skeleton
import proofs.«127173_j50714973831168_2_alg».proof.Proof.Gen.KernelIdeal.Launch
import proofs.«127173_j50714973831168_2_alg».proof.Proof.Gen.KernelIdeal.Points
import proofs.«127173_j50714973831168_2_alg».proof.Proof.Gen.KernelIdeal.Frame
import proofs.«127173_j50714973831168_2_alg».proof.Proof.Gen.ReferenceIdeal
import proofs.«127173_j50714973831168_2_alg».proof.Proof.Gen.Pre_finite_inputs
import proofs.«127173_j50714973831168_2_alg».proof.Proof.Gen.ReferenceIdeal.Run
import proofs.«127173_j50714973831168_2_alg».proof.Proof.Gen.ReferenceIdeal.Read
import proofs.«127173_j50714973831168_2_alg».proof.Proof.KernelValue
import proofs.«127173_j50714973831168_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments both programs end with the output samples `Spec.Gout` and the new states
    `Spec.Gstate` of those arguments. -/
theorem algebraic : Cert.algebraic_KernelIdeal_ReferenceIdeal := by
  intro m ρ m' ρ' _ hagree
  refine ⟨_, _, Cert.KernelValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v19_eq, Cert.RefValue.out_eq, (hagree c).1, (hagree c).2.1, (hagree c).2.2.1]
  · rw [(h c).2.1, Cert.ReferenceIdeal.Read.val_main_v18_eq, Cert.RefValue.state_eq, (hagree c).1, (hagree c).2.1, (hagree c).2.2.1,
      (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
